-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S2x1x4096 : Shape := ⟨3, ![2, 1, 4096]⟩
abbrev S512x4096 : Shape := ⟨2, ![512, 4096]⟩
abbrev S1x1x4096 : Shape := ⟨3, ![1, 1, 4096]⟩
abbrev S1x4096 : Shape := ⟨2, ![1, 4096]⟩
abbrev S4096 : Shape := ⟨1, ![4096]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x1x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  reducesTo_S2x1x4096_S_d0_1_2 : S2x1x4096.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S2x1x4096.size a
  hwx0_2 : ∀ i : grid0.Coords, EltTy.bits .f32 = 32 ∨ (Rect.block (s := S2x1x4096) S1x1x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel

variable [Facts₀]

class Facts : Prop extends Facts₀ where

variable [Facts]
-- ==== Proof.SumLaw.lean ====
/-
  Sums regrouped.  Addition in a commutative monoid (the extended reals among them: no finiteness is
  needed) can be taken in any grouping, so the sum over 16384 rows may be taken as 2 halves of 16 blocks of
  512 rows, and the order of the row and column sums exchanged.
-/
import Mathlib.Algebra.BigOperators.Fin
import Mathlib.Algebra.BigOperators.Group.Finset.Basic

namespace Cert.MeanSq

open Finset

variable {M : Type*} [AddCommMonoid M]

/-- A sum over `a * b` consecutive naturals is the sum over `a` runs of `b` consecutive naturals. -/
theorem sum_range_mul_split (f : ℕ → M) (a b : ℕ) :
    ∑ x ∈ range (a * b), f x = ∑ i ∈ range a, ∑ j ∈ range b, f (i * b + j) := by
  induction a with
  | zero => simp
  | succ a ih => rw [Nat.succ_mul, sum_range_add, ih, sum_range_succ]

/-- The rows of a 16384 × 4096 table summed as two halves of sixteen blocks of 512 rows, each block's rows summed
    column by column first: the same total as row by row. -/
theorem sum_rows_regroup (f : ℕ → ℕ → M) :
    ∑ c ∈ range 2, ∑ d ∈ range 4096, ∑ s ∈ range 16, ∑ r ∈ range 512, f ((16 * c + s) * 512 + r) d
      = ∑ p ∈ range 16384, ∑ d ∈ range 4096, f p d := by
  have hL : ∀ c ∈ range 2, ∑ d ∈ range 4096, ∑ s ∈ range 16, ∑ r ∈ range 512, f ((16 * c + s) * 512 + r) d
      = ∑ s ∈ range 16, ∑ r ∈ range 512, ∑ d ∈ range 4096, f ((16 * c + s) * 512 + r) d := by
    intro c _
    rw [sum_comm]
    exact sum_congr rfl fun s _ => sum_comm
  rw [sum_congr rfl hL]
  have h1 : ∑ p ∈ range 16384, ∑ d ∈ range 4096, f p d
      = ∑ t ∈ range 32, ∑ r ∈ range 512, ∑ d ∈ range 4096, f (t * 512 + r) d :=
    sum_range_mul_split (fun p => ∑ d ∈ range 4096, f p d) 32 512
  have h2 : ∑ t ∈ range 32, ∑ r ∈ range 512, ∑ d ∈ range 4096, f (t * 512 + r) d
      = ∑ c ∈ range 2, ∑ s ∈ range 16, ∑ r ∈ range 512, ∑ d ∈ range 4096, f ((c * 16 + s) * 512 + r) d :=
    sum_range_mul_split (fun t => ∑ r ∈ range 512, ∑ d ∈ range 4096, f (t * 512 + r) d) 2 16
  rw [h1, h2]
  exact sum_congr rfl fun c _ => sum_congr rfl fun s _ => by rw [Nat.mul_comm 16 c]

end Cert.MeanSq
-- ==== Proof.Pieces.lean ====
/-
  What one grid point's body leaves behind, as values.  The body keeps a running row of 4096 partial sums in a
  scratch row.  At the first point of a half it overwrites the row with zeros before adding; at every point it
  replaces the row by "row + column sums of the squared differences of this point's two 512 × 4096 blocks"; at
  the last point of a half it also copies the row, reshaped, into the 1 × 1 × 4096 output block.  Each statement
  below says so for one of the three kinds of point, for arbitrary contents of the blocks and of the row.
-/
import proofs.«120970_j6820408066430_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle point of a half (neither first nor last): the row `xs` becomes `xs` plus the column sums of the
    squared differences of the two blocks. -/
theorem row_middle (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x4096 .f32) (h4 : a4.IsWhole)
    (a5 : Memref sig .tc .vmem S1x4096 .f32) (h5 : a5.IsWhole) (hc0 : ¬cond0_0 i) (hc1 : ¬cond0_1 i)
    (x0 x1 : Vec F S512x4096 .f32) (xs : Vec F S1x4096 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero zeros2]
  simp only [View.readAt_eq_ld, h2.read_unread, h3.read_unread, h5.read_unread, View.ld_unit_zero (S := S512x4096) zeros2,
    View.ld_unit_zero (S := S1x4096) zeros2]

/-- The first point of a half: the row is first set to the zero row, so it ends as the zero row plus this
    point's column sums, whatever it held before. -/
theorem row_first (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x4096 .f32) (h4 : a4.IsWhole)
    (a5 : Memref sig .tc .vmem S1x4096 .f32) (h5 : a5.IsWhole) (hc0 : cond0_0 i) (hc1 : ¬cond0_1 i)
    (x0 x1 : Vec F S512x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x4096) zeros2, View.readCov_unit_zero (S := S1x4096) _ zeros2]
  simp only [View.readAt_eq_ld, h2.read_unread, h3.read_unread, View.ld_unit_zero (S := S512x4096) zeros2]

/-- The last point of a half, the row: as at a middle point. -/
theorem row_last (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x4096 .f32) (h4 : a4.IsWhole)
    (a5 : Memref sig .tc .vmem S1x4096 .f32) (h5 : a5.IsWhole) (hc0 : ¬cond0_0 i) (hc1 : cond0_1 i)
    (x0 x1 : Vec F S512x4096 .f32) (xs : Vec F S1x4096 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero zeros2]
  simp only [View.readAt_eq_ld, h2.read_unread, h3.read_unread, h5.read_unread, View.ld_unit_zero (S := S512x4096) zeros2,
    View.ld_unit_zero (S := S1x4096) zeros2]

/-- The last point of a half, the output block: the updated row, reshaped to 1 × 1 × 4096. -/
theorem block_last (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x4096 .f32) (h4 : a4.IsWhole)
    (a5 : Memref sig .tc .vmem S1x4096 .f32) (h5 : a5.IsWhole) (hc0 : ¬cond0_0 i) (hc1 : cond0_1 i)
    (x0 x1 : Vec F S512x4096 .f32) (xs : Vec F S1x4096 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero zeros3, View.readCov_unit_zero (S := S1x4096) _ zeros2]
  simp only [View.readAt_eq_ld, h2.read_unread, h3.read_unread, h5.read_unread, View.ld_unit_zero (S := S512x4096) zeros2,
    View.ld_unit_zero (S := S1x4096) zeros2]

end Cert.KernelIdeal.Pieces

end
-- ==== Proof.Payload.lean ====
/-
  The body's three stored values read at one position, over the extended reals.

  * the zero row is `0` everywhere;
  * the updated row at column `d` is the old row's entry plus `∑ r, (x0[r,d] - x1[r,d])²` over the 512 rows of
    the two blocks (the reduction over the row axis is that plain sum: its starting value is the neutral element);
  * the output block at `(·,·,d)` is the row's entry at column `d` (a reshape moves no entry).
-/
import proofs.«120970_j6820408066430_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The sum over the row axis of a 512 × 4096 block, at column `d`: the sum of the column's 512 entries. -/
theorem colsum_apply (v : FVec Ideal S512x4096 .f32) (h : S512x4096.Reduces [0] S4096) (d : Fin 4096) :
    multiReduction .add [0] S4096 v 0x00000000#32 h (.inl rfl) rfl (ix1 d) = ∑ r : Fin 512, v (ix2 r d) := by
  refine (Ideal.multiReduction_add_single v 0x00000000#32 h (.inl rfl) rfl (ix1 d)).trans ?_
  refine Finset.sum_congr rfl fun r _ => congrArg v ?_
  funext a
  match a with
  | ⟨0, _⟩ => exact Fin.ext rfl
  | ⟨1, _⟩ => exact Fin.ext rfl

/-- The zero row. -/
theorem zero_row_apply (j : S1x4096.Idx) : k0_pay1 (F := Ideal) j = 0 := by
  unfold k0_pay1
  refine (congrFun (shapeCast_self _ _) j).trans ?_
  exact Ideal.ofBits_zero_f32

/-- The updated row at column `d`: the old entry plus the column's sum of squared differences over the blocks' rows. -/
theorem new_row_apply (x0 x1 : Vec Ideal S512x4096 .f32) (xs : Vec Ideal S1x4096 .f32) (u : Fin 1) (d : Fin 4096) :
    k0_pay2 (F := Ideal) x0 x1 xs (ix2 u d)
      = xs (ix2 u d) + ∑ r : Fin 512, (x0 (ix2 r d) - x1 (ix2 r d)) * (x0 (ix2 r d) - x1 (ix2 r d)) := by
  unfold k0_pay2
  refine (congrFun (shapeCast_self _ _) (ix2 u d)).trans ?_
  refine congrArg (fun z => xs (ix2 u d) + z) ?_
  refine (shapeCast_a_1a_apply _ _ u d).trans ?_
  exact colsum_apply _ _ d

/-- The output block at `(a, b, d)` is the row at column `d`. -/
theorem out_block_apply (v : Vec Ideal S1x4096 .f32) (a b : Fin 1) (d : Fin 4096) :
    k0_pay3 (F := Ideal) v (ix3 a b d) = v (ix2 b d) := by
  unfold k0_pay3
  exact shapeCast_ab_1ab_apply v _ a b d

end Cert.KernelIdeal.Payload

end
-- ==== Proof.Spec.lean ====
/-
  The quantity both programs compute, written once over plain row and column numbers.

  For two 16384 × 4096 tables `a`, `b` of extended reals, `cell a b p q` is the squared difference
  `(a[p,q] - b[p,q])²` (and `0` for a position outside the table, so that sums over ranges of naturals can be
  regrouped freely).  `blockSum a b t q` is column `q`'s sum over the 512 rows of row block `t`;
  `halfSum a b h q` is column `q`'s sum over the sixteen row blocks of half `h`.  The total of all squared
  differences is the same whether taken row by row, or half by half, block by block and column by column
  (`halves_total`): only commutativity and associativity of addition are used, so no entry needs to be finite.
-/
import Idealize.ShloMosaic.PureOps.Ideal
import Idealize.ShloMosaic.Lib.ValueIdx
import proofs.«120970_j6820408066430_2_alg».proof.Proof.SumLaw

noncomputable section

namespace Cert.MeanSq

open Idealize.ShloMosaic Idealize.ShloMosaic.ValueIdx Finset

/-- A 16384 × 4096 table of extended reals. -/
abbrev Tab : Type := FVec Ideal ⟨2, ![16384, 4096]⟩ .f32

/-- The squared difference of the two tables at row `p`, column `q`; zero outside the table. -/
def cell (a b : Tab) (p q : ℕ) : EReal :=
  if h : p < 16384 ∧ q < 4096 then
    (a (ix2 ⟨p, h.1⟩ ⟨q, h.2⟩) - b (ix2 ⟨p, h.1⟩ ⟨q, h.2⟩)) * (a (ix2 ⟨p, h.1⟩ ⟨q, h.2⟩) - b (ix2 ⟨p, h.1⟩ ⟨q, h.2⟩))
  else 0

theorem cell_inside (a b : Tab) (p : Fin 16384) (q : Fin 4096) :
    cell a b p.val q.val = (a (ix2 p q) - b (ix2 p q)) * (a (ix2 p q) - b (ix2 p q)) :=
  dif_pos ⟨p.isLt, q.isLt⟩

/-- Column `q` summed over the 512 rows of row block `t`. -/
def blockSum (a b : Tab) (t q : ℕ) : EReal := ∑ r ∈ range 512, cell a b (t * 512 + r) q

/-- Column `q` summed over the sixteen row blocks of half `h`. -/
def halfSum (a b : Tab) (h q : ℕ) : EReal := ∑ s ∈ range 16, blockSum a b (16 * h + s) q

/-- The sum of all squared differences, over the table's index set, is the sum over row and column numbers. -/
theorem total_rows (a b : Tab) :
    ∑ j : (⟨2, ![16384, 4096]⟩ : Shape).Idx, (a j - b j) * (a j - b j)
      = ∑ p ∈ range 16384, ∑ q ∈ range 4096, cell a b p q := by
  rw [sum_idx2, Finset.sum_range (fun p => ∑ q ∈ range 4096, cell a b p q)]
  refine Finset.sum_congr rfl fun p _ => ?_
  rw [Finset.sum_range (fun q => cell a b p.val q)]
  exact Finset.sum_congr rfl fun q _ => (cell_inside a b p q).symm

/-- The two halves' column sums, added over the halves and the columns, are the total. -/
theorem halves_total (a b : Tab) :
    ∑ h ∈ range 2, ∑ q ∈ range 4096, halfSum a b h q = ∑ p ∈ range 16384, ∑ q ∈ range 4096, cell a b p q :=
  sum_rows_regroup (fun p q => cell a b p q)

end Cert.MeanSq

end
-- ==== Proof.Blocks.lean ====
/-
  The input blocks.  At grid point `t` (0 ≤ t < 32) each input's block is rows `512·t … 512·t + 511` of its
  16384 × 4096 table, all 4096 columns: the block index is `(16·(t / 16) + t % 16, 0) = (t, 0)`.  So the column
  sums of squared differences of the two blocks at point `t` are the table's `blockSum … t`.
-/
import proofs.«120970_j6820408066430_2_alg».proof.Proof.Gen.KernelIdeal.Frame
import proofs.«120970_j6820408066430_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx Cert.MeanSq Finset

variable (m : (ℓ : Loc nD τ sig) → Buf (Elt Ideal) ℓ)

/-- The first argument table on core `c`. -/
abbrev tableA (c : Dev nD) : Tab := m ((c : Thread nD τ).loc main_arg0)
/-- The second argument table on core `c`. -/
abbrev tableB (c : Dev nD) : Tab := m ((c : Thread nD τ).loc main_arg1)

/-- The two inputs' blocks at point `t`, as 512 × 4096 arrays. -/
abbrev blockA (c : Dev nD) (t : Fin cfg0.N) : Vec Ideal S512x4096 .f32 := iblk m c 0 t
abbrev blockB (c : Dev nD) (t : Fin cfg0.N) : Vec Ideal S512x4096 .f32 := iblk m c 1 t

/-- Both inputs' block index at point `t` is `(t, 0)`. -/
theorem index_first : ∀ t : Fin cfg0.N, win0_0.index t 0 = t.val ∧ win0_0.index t 1 = 0 :=
  (by decide +kernel : ∀ t : Fin grid0.N, win0_0.index t 0 = t.val ∧ win0_0.index t 1 = 0)
theorem index_second : ∀ t : Fin cfg0.N, win0_1.index t 0 = t.val ∧ win0_1.index t 1 = 0 :=
  (by decide +kernel : ∀ t : Fin grid0.N, win0_1.index t 0 = t.val ∧ win0_1.index t 1 = 0)

/-- The first input's block at point `t`, at `(r, d)`, is the table at row `512·t + r`, column `d`. -/
theorem blockA_apply (c : Dev nD) (t : Fin cfg0.N) (r : Fin 512) (d : Fin 4096) (hr : t.val * 512 + r.val < 16384) :
    blockA m c t (ix2 r d) = tableA m c (ix2 ⟨t.val * 512 + r.val, hr⟩ d) := by
  unfold blockA iblk
  rw [View.read_apply]
  show V m c main_arg0 _ = m ((c : Thread nD τ).loc main_arg0) _
  unfold V
  congr 1
  funext a
  apply Fin.ext
  match a with
  | ⟨0, _⟩ => show win0_0.index t 0 * 512 + 1 * r.val = t.val * 512 + r.val; rw [(index_first t).1]; omega
  | ⟨1, _⟩ => show win0_0.index t 1 * 4096 + 1 * d.val = d.val; rw [(index_first t).2]; omega

/-- The second input's block likewise. -/
theorem blockB_apply (c : Dev nD) (t : Fin cfg0.N) (r : Fin 512) (d : Fin 4096) (hr : t.val * 512 + r.val < 16384) :
    blockB m c t (ix2 r d) = tableB m c (ix2 ⟨t.val * 512 + r.val, hr⟩ d) := by
  unfold blockB iblk
  rw [View.read_apply]
  show V m c main_arg1 _ = m ((c : Thread nD τ).loc main_arg1) _
  unfold V
  congr 1
  funext a
  apply Fin.ext
  match a with
  | ⟨0, _⟩ => show win0_1.index t 0 * 512 + 1 * r.val = t.val * 512 + r.val; rw [(index_second t).1]; omega
  | ⟨1, _⟩ => show win0_1.index t 1 * 4096 + 1 * d.val = d.val; rw [(index_second t).2]; omega

/-- Column `d`'s sum of squared differences over the rows of point `t`'s two blocks is the tables' block sum. -/
theorem point_sum (c : Dev nD) (t : Fin cfg0.N) (d : Fin 4096) :
    ∑ r : Fin 512, (blockA m c t (ix2 r d) - blockB m c t (ix2 r d))
        * (blockA m c t (ix2 r d) - blockB m c t (ix2 r d))
      = blockSum (tableA m c) (tableB m c) t.val d.val := by
  have hN : t.val < 32 := lt_of_lt_of_eq t.isLt (show cfg0.N = 32 from N_0)
  unfold blockSum
  rw [Finset.sum_range (fun r => cell (tableA m c) (tableB m c) (t.val * 512 + r) d.val)]
  refine Finset.sum_congr rfl fun r _ => ?_
  have hr : t.val * 512 + r.val < 16384 := by have := r.isLt; omega
  rw [blockA_apply m c t r d hr, blockB_apply m c t r d hr]
  exact (cell_inside (tableA m c) (tableB m c) ⟨t.val * 512 + r.val, hr⟩ d).symm

end Cert.KernelIdeal.Blocks

end
-- ==== Proof.Row.lean ====
/-
  The running row.  After grid point `n` the scratch row holds, at column `d`, the sum of the block sums of the
  points from the start of `n`'s half up to `n`:  `∑ s ≤ n % 16, blockSum (16·(n / 16) + s) d`.
  At the first point of a half the row is zeroed first (`0 + x = x`); at the other points one more block sum is
  added to what the previous point left.  By induction on the point.
-/
import proofs.«120970_j6820408066430_2_alg».proof.Proof.Pieces
import proofs.«120970_j6820408066430_2_alg».proof.Proof.Payload
import proofs.«120970_j6820408066430_2_alg».proof.Proof.Blocks

noncomputable section

namespace Cert.KernelIdeal.Row

open Cert.KernelIdeal Cert.KernelIdeal.Gen Idealize.ShloMosaic Idealize.ShloMosaic.TcCoe Idealize.SL.Sem
open Idealize.ShloMosaic.ValueIdx Cert.MeanSq Cert.KernelIdeal.Blocks Finset

variable (m : (ℓ : Loc nD τ sig) → Buf (Elt Ideal) ℓ)

/-- One update of the row at column `d`, given the value `B` of the blocks' column sum and the old entry `prev`. -/
theorem step_value (x0 x1 : Vec Ideal S512x4096 .f32) (xs : Vec Ideal S1x4096 .f32) (u : Fin 1) (d : Fin 4096)
    (B prev : EReal)
    (hB : ∑ r : Fin 512, (x0 (ix2 r d) - x1 (ix2 r d)) * (x0 (ix2 r d) - x1 (ix2 r d)) = B)
    (hprev : xs (ix2 u d) = prev) :
    k0_pay2 (F := Ideal) x0 x1 xs (ix2 u d) = prev + B := by
  rw [Payload.new_row_apply, hB, hprev]

/-- The row after point `n`, at column `d`. -/
theorem row_after (c : Dev nD) : ∀ (n : ℕ) (hn : n < cfg0.N) (u : Fin 1) (d : Fin 4096),
    ((outsAt0 m c n hn).2 : Vec Ideal S1x4096 .f32) (ix2 u d)
      = ∑ s ∈ range (n % 16 + 1), blockSum (tableA m c) (tableB m c) (16 * (n / 16) + s) d.val := by
  intro n
  induction n using Nat.strong_induction_on with
  | _ n ih =>
    intro hn u d
    have hN : cfg0.N = 32 := N_0
    by_cases h0 : n % 16 = 0
    · have h1 : ¬ n % 16 = 15 := by omega
      rw [outsAt0_A m c ⟨n, hn⟩ h0 h1]
      dsimp only
      rw [Pieces.row_first]
      refine (step_value _ _ _ u d (blockSum (tableA m c) (tableB m c) n d.val) 0 (point_sum m c ⟨n, hn⟩ d)
        (Payload.zero_row_apply _)).trans ?_
      have e3 : 16 * (n / 16) + 0 = n := by omega
      rw [h0, Finset.sum_range_one, e3, zero_add]
    · have hpos : n - 1 < n := by omega
      have e1 : (n - 1) % 16 + 1 = n % 16 := by omega
      have e2 : (n - 1) / 16 = n / 16 := by omega
      have e3 : 16 * (n / 16) + n % 16 = n := by omega
      by_cases h1 : n % 16 = 15
      · rw [outsAt0_C m c ⟨n, hn⟩ h0 h1]
        dsimp only
        rw [Pieces.row_last]
        refine (step_value _ _ _ u d (blockSum (tableA m c) (tableB m c) n d.val) _ (point_sum m c ⟨n, hn⟩ d)
          (ih (n - 1) hpos _ u d)).trans ?_
        rw [e1, e2, Finset.sum_range_succ, e3]
      · rw [outsAt0_B m c ⟨n, hn⟩ h0 h1]
        dsimp only
        rw [Pieces.row_middle]
        refine (step_value _ _ _ u d (blockSum (tableA m c) (tableB m c) n d.val) _ (point_sum m c ⟨n, hn⟩ d)
          (ih (n - 1) hpos _ u d)).trans ?_
        rw [e1, e2, Finset.sum_range_succ, e3]

end Cert.KernelIdeal.Row

end
-- ==== Proof.Output.lean ====
/-
  The output array.  The 2 × 1 × 4096 array the grid leaves holds, at `(h, 0, d)`, column `d`'s sum of squared
  differences over the sixteen row blocks of half `h`: the last point of half `h` (point `16·h + 15`) copies the
  running row, which by then has all sixteen block sums, into block `(h, 0, 0)` of the array, and only those two
  points write a block back; their two blocks are the whole array.
-/
import proofs.«120970_j6820408066430_2_alg».proof.Proof.Row
import Idealize.ShloMosaic.Lib.Pipeline.Value

noncomputable section

namespace Cert.KernelIdeal.Output

open Cert.KernelIdeal Cert.KernelIdeal.Gen Idealize.ShloMosaic Idealize.ShloMosaic.TcCoe Idealize.SL.Sem
open Idealize.ShloMosaic.ValueIdx Cert.MeanSq Cert.KernelIdeal.Blocks Finset
open Idealize.ShloMosaic.Pipeline (Dat)

variable (m : (ℓ : Loc nD τ sig) → Buf (Elt Ideal) ℓ)

/-- The array of the two halves' column sums. -/
def halves (c : Dev nD) : Vec Ideal S2x1x4096 .f32 :=
  fun j => halfSum (tableA m c) (tableB m c) (j 0).val (j 2).val

/-- The same, as contents of the output array's buffer. -/
abbrev halvesBuf (c : Dev nD) : Buf (Elt Ideal) ((c : Thread nD τ).loc main_v0) := halves m c

/-- The output's block index at point `t` is `(t / 16, 0, 0)`. -/
theorem index_out : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- After the last point `t` of a half, the output block holds at `(·, ·, d)` the half's column sum. -/
theorem block_after (c : Dev nD) (t : Fin cfg0.N) (h15 : t.val % 16 = 15) (j : S1x1x4096.Idx) :
    ((outsAt0 m c t.val t.isLt).1 : Vec Ideal S1x1x4096 .f32) j
      = halfSum (tableA m c) (tableB m c) (t.val / 16) (j 2).val := by
  obtain ⟨a, b, d, rfl⟩ : ∃ (a b : Fin 1) (d : Fin 4096), j = ix3 a b d := ⟨j 0, j 1, j 2, eq_ix3 j⟩
  have h0 : ¬ t.val % 16 = 0 := by omega
  have hrow := Row.row_after m c t.val t.isLt b d
  rw [outsAt0_C m c t h0 h15] at hrow ⊢
  dsimp only at hrow ⊢
  rw [Pieces.row_last] at hrow
  rw [Pieces.block_last, Payload.out_block_apply]
  refine hrow.trans ?_
  unfold halfSum
  rw [h15]

/-- What a writing point `t` writes back is block `t` of the array of the halves' column sums. -/
theorem flushed_eq (c : Dev nD) (t : Fin cfg0.N) (hf : (cfg0.win 2).flush t = true) :
    (dats m 0 c).flushed 2 t = ((cfg0.win 2).blk t).view.read (Elt Ideal) (halvesBuf m c) := by
  have h15 : t.val % 16 = 15 := (flush0_2 t).mp hf
  show (cfg0.win 2).cut (grid0.coords t) ((dats m 0 c).after 2 t) = _
  rw [after0_2]
  funext j
  rw [View.read_apply]
  show ((outsAt0 m c t.val t.isLt).1 : Vec Ideal S1x1x4096 .f32) j = halves m c (((cfg0.win 2).blk t).view.emb j)
  rw [block_after m c t h15 j]
  unfold halves
  have hj0 : (j 0).val < 1 := (j 0).isLt
  have e0 : ((((cfg0.win 2).blk t).view.emb j) 0).val = t.val / 16 := by
    show win0_2.index t (0 : Fin 3) * 1 + 1 * (j 0).val = t.val / 16
    rw [(index_out t).1]; omega
  have e2 : ((((cfg0.win 2).blk t).view.emb j) 2).val = (j 2).val := by
    show win0_2.index t (2 : Fin 3) * 4096 + 1 * (j 2).val = (j 2).val
    rw [(index_out t).2.2]; omega
  show halfSum _ _ (t.val / 16) (j 2).val
    = halfSum _ _ ((((cfg0.win 2).blk t).view.emb j) 0).val ((((cfg0.win 2).blk t).view.emb j) 2).val
  rw [e0, e2]

/-- An index of the array is in point `t`'s block iff each coordinate is in the block's range on its axis. -/
theorem mem_block (t : Fin cfg0.N) (i : S2x1x4096.Idx) :
    i ∈ ((cfg0.win 2).blk t).view.set ↔ ∀ a : Fin 3, win0_2.index t a * S1x1x4096.size a ≤ (i a).val
      ∧ (i a).val < win0_2.index t a * S1x1x4096.size a + S1x1x4096.size a := by
  show i ∈ ((View.whole main_v0).slice (win0_2.rect t)).set ↔ _
  rw [View.set_slice_whole, Rect.mem_set_unit]
  exact Iff.rfl

/-- Every index `(h, 0, d)` of the array is in the block the last point of half `h` writes back. -/
theorem covered (i : S2x1x4096.Idx) :
    ∃ t : Fin cfg0.N, (cfg0.win 2).flush t = true ∧ i ∈ ((cfg0.win 2).blk t).view.set := by
  have hN : cfg0.N = 32 := N_0
  have hi0 : (i 0).val < 2 := (i 0).isLt
  have hi1 : (i 1).val < 1 := (i 1).isLt
  have hi2 : (i 2).val < 4096 := (i 2).isLt
  obtain ⟨t, ht⟩ : ∃ t : Fin cfg0.N, t.val = 16 * (i 0).val + 15 := ⟨⟨16 * (i 0).val + 15, by omega⟩, rfl⟩
  obtain ⟨q0, q1, q2⟩ := index_out t
  refine ⟨t, (flush0_2 t).mpr (by omega), ?_⟩
  rw [mem_block]
  intro a
  match a with
  | ⟨0, _⟩ =>
    show win0_2.index t (0 : Fin 3) * 1 ≤ (i 0).val ∧ (i 0).val < win0_2.index t (0 : Fin 3) * 1 + 1
    rw [q0]; omega
  | ⟨1, _⟩ =>
    show win0_2.index t (1 : Fin 3) * 1 ≤ (i 1).val ∧ (i 1).val < win0_2.index t (1 : Fin 3) * 1 + 1
    rw [q1]; omega
  | ⟨2, _⟩ =>
    show win0_2.index t (2 : Fin 3) * 4096 ≤ (i 2).val ∧ (i 2).val < win0_2.index t (2 : Fin 3) * 4096 + 4096
    rw [q2]; omega

/-- So the output array ends holding the halves' column sums. -/
theorem final_array (c : Dev nD) : (dats m 0 c).arrAt 2 cfg0.N = halvesBuf m c :=
  (dats m 0 c).arrAt_eq_of_cover 2 (halvesBuf m c) (fun t hf => flushed_eq m c t hf) covered

end Cert.KernelIdeal.Output

end
-- ==== Proof.Bridge.lean ====
/-
  The two programs end the same way: every entry of an array is added up, starting from zero, and the total is
  divided by 2²⁶.  `meanTail x` is that ending applied to an array `x`.  It depends on `x` only through the sum of
  all its entries (`meanTail_congr`), and the 2 × 1 × 4096 array of the halves' column sums has the same total as
  the 16384 × 4096 array of squared differences (`halves_sum`): so the two endings agree (`mean_eq`).
-/
import Idealize.ShloMosaic.PureOps.Ideal.Laws
import proofs.«120970_j6820408066430_2_alg».proof.Proof.Spec

noncomputable section

namespace Cert.MeanSq

open Idealize.ShloMosaic Idealize.ShloMosaic.ValueIdx Finset

/-- A rank-3 index is its three coordinates … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over rank-3 indices is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over every axis, into a rank-0 result, read over the extended reals: the starting value plus the sum of
    all entries. -/
theorem total_sum_apply {s u : Shape} {axes : List (Fin s.rank)} (x : FVec Ideal s .f32) (z : u.Idx → Ideal .f32)
    (h : s.ReducesTo axes ⟨0, ![]⟩) (hu : 0 < u.numel) (i : (⟨0, ![]⟩ : Shape).Idx) :
    Host.reduceAdd (F := Ideal) x z h hu i = z (Shape.Idx.first hu) + ∑ j : s.Idx, x j :=
  Ideal.hostReduceAdd_total h (fun b => b.elim0) x _ i

/-- The common ending: the sum of all entries of `x` from zero, divided by 2²⁶. -/
def meanTail {s : Shape} {axes : List (Fin s.rank)} (x : FVec Ideal s .f32) (h : s.ReducesTo axes ⟨0, ![]⟩)
    (hu : 0 < (⟨0, ![]⟩ : Shape).numel) : FVec Ideal ⟨0, ![]⟩ .f32 :=
  Host.divf (F := Ideal)
    (Host.reduceAdd (F := Ideal) x (constant (F := Ideal) ⟨0, ![]⟩ .f32 0x00000000#32) h hu)
    (constant (F := Ideal) ⟨0, ![]⟩ .f32 0x4C800000#32)

/-- The ending sees its array only through the sum of all entries. -/
theorem meanTail_congr {s s' : Shape} {axes : List (Fin s.rank)} {axes' : List (Fin s'.rank)}
    (x : FVec Ideal s .f32) (x' : FVec Ideal s' .f32) (h : s.ReducesTo axes ⟨0, ![]⟩) (h' : s'.ReducesTo axes' ⟨0, ![]⟩)
    (hu : 0 < (⟨0, ![]⟩ : Shape).numel) (hsum : ∑ j, x j = ∑ j, x' j) :
    meanTail x h hu = meanTail x' h' hu := by
  funext i
  show FloatOps.hostDivf (Host.reduceAdd (F := Ideal) x _ h hu i) _ = FloatOps.hostDivf (Host.reduceAdd (F := Ideal) x' _ h' hu i) _
  rw [total_sum_apply x _ h hu i, total_sum_apply x' _ h' hu i, hsum]

/-- The halves' column sums add up to the total of the squared differences. -/
theorem halves_sum (a b : Tab) :
    ∑ j : (⟨3, ![2, 1, 4096]⟩ : Shape).Idx, halfSum a b (j 0).val (j 2).val
      = ∑ j : (⟨2, ![16384, 4096]⟩ : Shape).Idx, (a j - b j) * (a j - b j) := by
  rw [total_rows, ← halves_total, sum_idx3, Finset.sum_range (fun h => ∑ q ∈ range 4096, halfSum a b h q)]
  refine Finset.sum_congr rfl fun h _ => ?_
  rw [Fin.sum_univ_one, Finset.sum_range (fun q => halfSum a b h.val q)]

/-- The ending applied to the squared differences and to the halves' column sums gives the same number. -/
theorem mean_eq (a b : Tab) (hBig : (⟨2, ![16384, 4096]⟩ : Shape).ReducesTo [0, 1] ⟨0, ![]⟩)
    (hOut : (⟨3, ![2, 1, 4096]⟩ : Shape).ReducesTo [0, 1, 2] ⟨0, ![]⟩) (hu : 0 < (⟨0, ![]⟩ : Shape).numel) :
    meanTail (mulf (subf a b) (subf a b)) hBig hu
      = meanTail (fun j : (⟨3, ![2, 1, 4096]⟩ : Shape).Idx => halfSum a b (j 0).val (j 2).val) hOut hu :=
  meanTail_congr _ _ hBig hOut hu (halves_sum a b).symm

end Cert.MeanSq

end
-- ==== Proof.Tail.lean ====
/-
  The kernel program's result.  After the grid, the program adds up every entry of the 2 × 1 × 4096 output array
  from zero and divides by 2²⁶.  The array holds the halves' column sums, so the result is that ending applied to
  them; the two argument tables are left as they were.
-/
import proofs.«120970_j6820408066430_2_alg».proof.Proof.Output
import proofs.«120970_j6820408066430_2_alg».proof.Proof.Bridge
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.ValueIdx Cert.MeanSq Cert.KernelIdeal.Blocks Finset
open Idealize.ShloMosaic.StableHlo
open Idealize.ShloMosaic.Pipeline (Dat)

variable (m : (ℓ : Loc nD τ sig) → Buf (Elt Ideal) ℓ) (ρ : Dev nD → PrngReg)

/-- The result buffer after the operations that follow the grid: the common ending applied to the halves' column sums. -/
theorem tail_value (c : Dev nD) :
    Pipeline.afterTail₀ cfgs (dats m) 0 (V0 m) [hostOps1] c main_v2
      = meanTail (Output.halves m c) reducesTo_S2x1x4096_S_d0_1_2 h_S_ := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v0) = Output.halvesBuf m c :=
    (Pipeline.withArrays_arr spec0 launch0.win.arr_inj c _ _ 2).trans (Output.final_array m c)
  rw [hw]
  rfl

/-- Every weakly fair execution of the kernel program ends with the result at that value and the arguments unchanged. -/
theorem run : θ_run defs (onTc (τ := τ) (main (F := Ideal))) ⟨m, fun _ => 0, ρ⟩ fun r => ∀ c : Dev nD,
      r.2.mem ((c : Thread nD τ).loc main_v2) = meanTail (Output.halves m c) reducesTo_S2x1x4096_S_d0_1_2 h_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 rfl (by decide))).trans (tail_value m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Tail

end
-- ==== Proof.lean ====
/-
  The mean squared error of two 16384 × 4096 tables, computed two ways, is one number over the extended reals.

  The reference subtracts the tables, squares, adds up all 2²⁶ entries from zero and divides by 2²⁶.  The kernel
  program splits the rows into two halves of sixteen blocks of 512 rows; for each half a grid of sixteen points keeps
  a running row of 4096 column sums (zeroed at the half's first point, one block's column sums added per point) and
  copies it out after the sixteenth; then the 2 × 4096 column sums are added up from zero and divided by the same 2²⁶.
  Both divide the same literal into a sum of the same 2²⁶ squared differences, grouped differently; addition of
  extended reals is commutative and associative, so the sums agree and no entry needs to be finite.

  Modules: `SumLaw` (regrouping sums over ranges), `Spec` (the squared differences and their block, half and total
  sums), `Pieces` and `Payload` (what one grid point's body leaves, as values read at a position), `Blocks` (an
  input block is 512 rows of its table), `Row` (the running row after each point, by induction), `Output` (the
  array the grid leaves), `Tail` (the kernel program's result), `Bridge` (the common ending; the two totals agree).
  The three frames are the generated frame proofs and the reference's generated run; the idealization rewrote
  nothing, so its conjunct is trivial.
-/
import proofs.«120970_j6820408066430_2_alg».proof.Defs
import proofs.«120970_j6820408066430_2_alg».proof.Proof.Gen.Kernel
import proofs.«120970_j6820408066430_2_alg».proof.Proof.Gen.Kernel.Skeleton
import proofs.«120970_j6820408066430_2_alg».proof.Proof.Gen.Kernel.Launch
import proofs.«120970_j6820408066430_2_alg».proof.Proof.Gen.Kernel.Points
import proofs.«120970_j6820408066430_2_alg».proof.Proof.Gen.Kernel.Frame
import proofs.«120970_j6820408066430_2_alg».proof.Proof.Gen.KernelIdeal
import proofs.«120970_j6820408066430_2_alg».proof.Proof.Gen.KernelIdeal.Skeleton
import proofs.«120970_j6820408066430_2_alg».proof.Proof.Gen.KernelIdeal.Launch
import proofs.«120970_j6820408066430_2_alg».proof.Proof.Gen.KernelIdeal.Points
import proofs.«120970_j6820408066430_2_alg».proof.Proof.Gen.KernelIdeal.Frame
import proofs.«120970_j6820408066430_2_alg».proof.Proof.Gen.ReferenceIdeal
import proofs.«120970_j6820408066430_2_alg».proof.Proof.Gen.Pre_finite_inputs
import proofs.«120970_j6820408066430_2_alg».proof.Proof.Gen.ReferenceIdeal.Run
import proofs.«120970_j6820408066430_2_alg».proof.Proof.SumLaw
import proofs.«120970_j6820408066430_2_alg».proof.Proof.Tail
import Idealize.ShloMosaic.Adequacy
import Idealize.ShloMosaic.Init

noncomputable section

namespace Cert.Proof

open Idealize.ShloMosaic Idealize.ShloMosaic.TcCoe Idealize.SL.Sem

/-- The kernel program, read word by word, runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- And the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two tables, both programs end with the same result: the common ending applied
    to the halves' column sums (the kernel program) and to the squared differences (the reference), whose totals
    agree. -/
theorem algebraic : Cert.algebraic_KernelIdeal_ReferenceIdeal := by
  intro m ρ m' ρ' _ hagree
  refine ⟨fun c => Cert.MeanSq.meanTail (Cert.KernelIdeal.Output.halves m c)
    Cert.KernelIdeal.Gen.reducesTo_S2x1x4096_S_d0_1_2 Cert.KernelIdeal.Gen.h_S_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.MeanSq.mean_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
